-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S2x200000 : Shape := ⟨2, ![2, 200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : IVec S2x200000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S100000x64 : Shape := ⟨2, ![100000, 64]⟩
abbrev S2x1000000 : Shape := ⟨2, ![2, 1000000]⟩
abbrev S2x200000 : Shape := ⟨2, ![2, 200000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S10000x64 : Shape := ⟨2, ![10000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S212992x64 : Shape := ⟨2, ![212992, 64]⟩
abbrev S212992x1 : Shape := ⟨2, ![212992, 1]⟩
abbrev S16384x64 : Shape := ⟨2, ![16384, 64]⟩
abbrev S16384x1 : Shape := ⟨2, ![16384, 1]⟩
abbrev S16384 : Shape := ⟨1, ![16384]⟩

abbrev nBuf : Space → Nat
  | .hbm => 88
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S2x200000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .f32⟩
  | .hbm, ⟨14, _⟩ => ⟨S1000000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S_, .f32⟩
  | .hbm, ⟨33, _⟩ => ⟨S100000x64, .f32⟩
  | .hbm, ⟨34, _⟩ => ⟨S1000000x1, .i32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x64, .f32⟩
  | .hbm, ⟨49, _⟩ => ⟨S_, .f32⟩
  | .hbm, ⟨50, _⟩ => ⟨S100000x64, .f32⟩
  | .hbm, ⟨51, _⟩ => ⟨S1000000x1, .i32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S1x200000, .i32⟩
  | .hbm, ⟨58, _⟩ => ⟨S200000, .i32⟩
  | .hbm, ⟨59, _⟩ => ⟨S_, .i32⟩
  | .hbm, ⟨60, _⟩ => ⟨S200000, .i32⟩
  | .hbm, ⟨61, _⟩ => ⟨S200000, .i1⟩
  | .hbm, ⟨62, _⟩ => ⟨S_, .i32⟩
  | .hbm, ⟨63, _⟩ => ⟨S200000, .i32⟩
  | .hbm, ⟨64, _⟩ => ⟨S200000, .i32⟩
  | .hbm, ⟨65, _⟩ => ⟨S200000, .i32⟩
  | .hbm, ⟨66, _⟩ => ⟨S200000x1, .i32⟩
  | .hbm, ⟨67, _⟩ => ⟨S200000x64, .f32⟩
  | .hbm, ⟨68, _⟩ => ⟨S1x200000, .i32⟩
  | .hbm, ⟨69, _⟩ => ⟨S200000, .i32⟩
  | .hbm, ⟨70, _⟩ => ⟨S_, .i32⟩
  | .hbm, ⟨71, _⟩ => ⟨S200000, .i32⟩
  | .hbm, ⟨72, _⟩ => ⟨S200000, .i1⟩
  | .hbm, ⟨73, _⟩ => ⟨S_, .i32⟩
  | .hbm, ⟨74, _⟩ => ⟨S200000, .i32⟩
  | .hbm, ⟨75, _⟩ => ⟨S200000, .i32⟩
  | .hbm, ⟨76, _⟩ => ⟨S200000, .i32⟩
  | .hbm, ⟨77, _⟩ => ⟨S200000x1, .i32⟩
  | .hbm, ⟨78, _⟩ => ⟨S200000x64, .f32⟩
  | .hbm, ⟨79, _⟩ => ⟨S_, .i32⟩
  | .hbm, ⟨80, _⟩ => ⟨S_, .f32⟩
  | .hbm, ⟨81, _⟩ => ⟨S212992x64, .f32⟩
  | .hbm, ⟨82, _⟩ => ⟨S_, .i32⟩
  | .hbm, ⟨83, _⟩ => ⟨S_, .f32⟩
  | .hbm, ⟨84, _⟩ => ⟨S212992x64, .f32⟩
  | .hbm, ⟨85, _⟩ => ⟨S212992x1, .f32⟩
  | .hbm, ⟨86, _⟩ => ⟨S200000x1, .f32⟩
  | .hbm, ⟨87, _⟩ => ⟨S200000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S16384x64, .f32⟩
  | .local _ .vmem, ⟨19, _⟩ => ⟨S16384x64, .f32⟩
  | .local _ .vmem, ⟨20, _⟩ => ⟨S16384x64, .f32⟩
  | .local _ .vmem, ⟨21, _⟩ => ⟨S16384x64, .f32⟩
  | .local _ .vmem, ⟨22, _⟩ => ⟨S16384x1, .f32⟩
  | .local _ .vmem, ⟨23, _⟩ => ⟨S16384x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_call0_v0 : Ref sig .tc := ⟨.hbm, 80, rfl⟩
abbrev main_v57 : Ref sig .tc := ⟨.hbm, 81, rfl⟩
abbrev main_c_12 : Ref sig .tc := ⟨.hbm, 82, rfl⟩
abbrev main_call1_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16384x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  pads_S200000x64_S212992x64_0129920_000 : S200000x64.Pads (![0, 0] : Fin 2 → Nat) ![12992, 0] ![0, 0] S212992x64
  h_S_ : 0 < S_.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  reduces_S16384x64_S16384 : S16384x64.Reduces [1] S16384
  shapeCasts_S16384_S16384x1 : S16384.ShapeCasts S16384x1
  inb_S16384x1_S16384x1_0_0 : ∀ a, (![0, 0] : Fin 2 → Nat) a + S16384x1.size a ≤ S16384x1.size a
  h_S16384x1 : 0 < S16384x1.numel
  slices_S212992x1_S200000x1_0_0 : S212992x1.Slices ![0, 0] S200000x1
  shapeCasts_S200000x1_S200000 : S200000x1.ShapeCasts S200000
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x64.size a ≤ S212992x64.size a
  hwx2_0 : ∀ i : grid2.Coords, EltTy.bits .f32 = 32 ∨ (Rect.block (s := S212992x64) S16384x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16384x64.size a ≤ S212992x64.size a
  hwx2_1 : ∀ i : grid2.Coords, EltTy.bits .f32 = 32 ∨ (Rect.block (s := S212992x64) S16384x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16384x1.size a ≤ S212992x1.size a
  hwx2_2 : ∀ i : grid2.Coords, EltTy.bits .f32 = 32 ∨ (Rect.block (s := S212992x1) S16384x1.size (cc2_transform_2 i) (hinb2_2 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S16384x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S16384x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S16384x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S2x200000 : Shape := ⟨2, ![2, 200000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 107
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S2x200000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x64, .f32⟩
  | .hbm, ⟨22, _⟩ => ⟨S_, .f32⟩
  | .hbm, ⟨23, _⟩ => ⟨S100000x64, .f32⟩
  | .hbm, ⟨24, _⟩ => ⟨S1000000x1, .i32⟩
  | .hbm, ⟨25, _⟩ => ⟨S100000x64, .f32⟩
  | .hbm, ⟨26, _⟩ => ⟨S_, .f32⟩
  | .hbm, ⟨27, _⟩ => ⟨S1000000, .f32⟩
  | .hbm, ⟨28, _⟩ => ⟨S_, .f32⟩
  | .hbm, ⟨29, _⟩ => ⟨S100000, .f32⟩
  | .hbm, ⟨30, _⟩ => ⟨S1000000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S1x1000000, .i32⟩
  | .hbm, ⟨48, _⟩ => ⟨S1000000, .i32⟩
  | .hbm, ⟨49, _⟩ => ⟨S1x1000000, .i32⟩
  | .hbm, ⟨50, _⟩ => ⟨S1000000, .i32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x64, .f32⟩
  | .hbm, ⟨60, _⟩ => ⟨S_, .f32⟩
  | .hbm, ⟨61, _⟩ => ⟨S100000x64, .f32⟩
  | .hbm, ⟨62, _⟩ => ⟨S1000000x1, .i32⟩
  | .hbm, ⟨63, _⟩ => ⟨S100000x64, .f32⟩
  | .hbm, ⟨64, _⟩ => ⟨S_, .f32⟩
  | .hbm, ⟨65, _⟩ => ⟨S1000000, .f32⟩
  | .hbm, ⟨66, _⟩ => ⟨S_, .f32⟩
  | .hbm, ⟨67, _⟩ => ⟨S100000, .f32⟩
  | .hbm, ⟨68, _⟩ => ⟨S1000000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S1x200000, .i32⟩
  | .hbm, ⟨83, _⟩ => ⟨S200000, .i32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x64, .f32⟩
  | .hbm, ⟨93, _⟩ => ⟨S1x200000, .i32⟩
  | .hbm, ⟨94, _⟩ => ⟨S200000, .i32⟩
  | .hbm, ⟨95, _⟩ => ⟨S_, .i32⟩
  | .hbm, ⟨96, _⟩ => ⟨S200000, .i32⟩
  | .hbm, ⟨97, _⟩ => ⟨S200000, .i1⟩
  | .hbm, ⟨98, _⟩ => ⟨S_, .i32⟩
  | .hbm, ⟨99, _⟩ => ⟨S200000, .i32⟩
  | .hbm, ⟨100, _⟩ => ⟨S200000, .i32⟩
  | .hbm, ⟨101, _⟩ => ⟨S200000, .i32⟩
  | .hbm, ⟨102, _⟩ => ⟨S200000x1, .i32⟩
  | .hbm, ⟨103, _⟩ => ⟨S200000x64, .f32⟩
  | .hbm, ⟨104, _⟩ => ⟨S200000x64, .f32⟩
  | .hbm, ⟨105, _⟩ => ⟨S_, .f32⟩
  | .hbm, ⟨106, _⟩ => ⟨S200000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_c_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.KernelRun.lean ====
/-
  The idealized kernel's run with its result NAMED.

  @main is three pipelined regions among stretches of host operations.  Its run is the fold of the buffer contents
  through the ten segments: each host stretch applies its operations to the contents it finds, each region leaves its
  arrays at what its write-backs fold to and every other buffer as it was.  The last boundary's contents are `W10`;
  this module reads the result buffer (and the nine argument buffers) of every final state against them, so that the
  value of the program is the pure term `W10 m ρ c main_v61` of the launch memory.
-/
import proofs.«115666_j26577257628190_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays end as launched. -/
theorem run_named : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v61 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Whole

end
-- ==== Proof.Spec.lean ====
/-
  The graph network as ONE function of its nine arguments, written with the reference's own host operations.

  Two rounds of neighbourhood averaging followed by a linear map, then a dot product per labelled edge:

    mean(y)   = (scatter-add over the edges' targets of the rows of y gathered at the edges' sources)
                divided, row by row, by max(number of edges into the row, 1);
    layer(y)  = mean(y) · W_l  +  y · W_r  +  b      (the bias repeated along the rows);
    h         = max(layer₁(x), 0),      z = layer₂(h);
    out(e)    = Σ_d  z[label₀ e, d] · z[label₁ e, d].

  The gathers and scatter-adds stay whole-array operations (which element they touch depends on the index arrays);
  only the linear layer and the final row sum are ever read index by index.
-/
import proofs.«115666_j26577257628190_1_alg».proof.Proof.Gen.ReferenceIdeal.Read

noncomputable section

namespace Cert.Sage

open Cert.ReferenceIdeal Cert.ReferenceIdeal.Gen Idealize.ShloMosaic Idealize.ShloMosaic.TcCoe Idealize.SL.Sem

variable {F : FTy → Type} [FloatOps F]

/-- Row `r` of a two-row index array, as a flat array. -/
def edgeRow0 (ei : (⟨S2x1000000, .i32⟩ : BufTy).Contents (Elt F)) : (⟨S1000000, .i32⟩ : BufTy).Contents (Elt F) :=
  shapeCast _ (extractStridedSlice S1x1000000 ![0, 0] ei slices_S2x1000000_S1x1000000_0_0) shapeCasts_S1x1000000_S1000000
def edgeRow1 (ei : (⟨S2x1000000, .i32⟩ : BufTy).Contents (Elt F)) : (⟨S1000000, .i32⟩ : BufTy).Contents (Elt F) :=
  shapeCast _ (extractStridedSlice S1x1000000 ![1, 0] ei slices_S2x1000000_S1x1000000_1_0) shapeCasts_S1x1000000_S1000000

/-- The edges' source rows as gather indices: a negative index counts from the end. -/
def srcIdx (ei : (⟨S2x1000000, .i32⟩ : BufTy).Contents (Elt F)) : (⟨S1000000x1, .i32⟩ : BufTy).Contents (Elt F) :=
  broadcastInDim S1000000x1 ![0] bcast_S1000000_S1000000x1_0
    (select (cmpi .slt (edgeRow0 ei) (broadcastInDim S1000000 ![] bcast_S_S1000000 (constantI S_ 32 0#32)))
      (addi (edgeRow0 ei) (broadcastInDim S1000000 ![] bcast_S_S1000000 (constantI S_ 32 100000#32))) (edgeRow0 ei))

/-- The edges' target rows as scatter indices. -/
def dstIdx (ei : (⟨S2x1000000, .i32⟩ : BufTy).Contents (Elt F)) : (⟨S1000000x1, .i32⟩ : BufTy).Contents (Elt F) :=
  broadcastInDim S1000000x1 ![0] bcast_S1000000_S1000000x1_0 (edgeRow1 ei)

/-- max(in-degree, 1) of every row, as a column. -/
def degCol (ei : (⟨S2x1000000, .i32⟩ : BufTy).Contents (Elt F)) : (⟨S100000x1, .f32⟩ : BufTy).Contents (Elt F) :=
  broadcastInDim S100000x1 ![0] bcast_S100000_S100000x1_0
    (maximumf (Host.scatterAdd scatter_S100000_S1000000x1_S1000000_n_0_0_1 (broadcastInDim S100000 ![] bcast_S_S100000 (constant S_ .f32 0x00000000#32))
        (dstIdx ei) (broadcastInDim S1000000 ![] bcast_S_S1000000 (constant S_ .f32 0x3F800000#32)))
      (broadcastInDim S100000 ![] bcast_S_S100000 (constant S_ .f32 0x3F800000#32)))

/-- The mean of the rows of `y` over each row's incoming edges. -/
def meanAgg (y : (⟨S100000x64, .f32⟩ : BufTy).Contents (Elt F)) (ei : (⟨S2x1000000, .i32⟩ : BufTy).Contents (Elt F)) : (⟨S100000x64, .f32⟩ : BufTy).Contents (Elt F) :=
  Host.divf
    (Host.scatterAdd scatter_S100000x64_S1000000x1_S1000000x64_1_0_0_1 (broadcastInDim S100000x64 ![] bcast_S_S100000x64 (constant S_ .f32 0x00000000#32))
      (dstIdx ei) (Host.gather gather_S100000x64_S1000000x1_S1000000x64_1_0_n_n_0_1_164 y (srcIdx ei)))
    (broadcastInDim S100000x64 ![0, 1] bcast_S100000x1_S100000x64_0_1 (degCol ei))

/-- One linear layer on whole arrays: `a · W_l + y · W_r + b`. -/
def layer (a y : (⟨S100000x64, .f32⟩ : BufTy).Contents (Elt F)) (wl wr : (⟨S64x64, .f32⟩ : BufTy).Contents (Elt F)) (b : (⟨S64, .f32⟩ : BufTy).Contents (Elt F)) : (⟨S100000x64, .f32⟩ : BufTy).Contents (Elt F) :=
  addf (addf (Host.dotGeneral dot_S100000x64_S64x64_S100000x64_1_0_0_1_n_n none a wl)
             (Host.dotGeneral dot_S100000x64_S64x64_S100000x64_1_0_0_1_n_n none y wr))
    (broadcastInDim S100000x64 ![0, 1] bcast_S1x64_S100000x64_0_1 (broadcastInDim S1x64 ![1] bcast_S64_S1x64_1 b))

/-- max(·, 0) entry by entry. -/
def relu (y : (⟨S100000x64, .f32⟩ : BufTy).Contents (Elt F)) : (⟨S100000x64, .f32⟩ : BufTy).Contents (Elt F) :=
  maximumf y (broadcastInDim S100000x64 ![] bcast_S_S100000x64 (constant S_ .f32 0x00000000#32))

/-- The hidden features. -/
def hidden (x : (⟨S100000x64, .f32⟩ : BufTy).Contents (Elt F)) (ei : (⟨S2x1000000, .i32⟩ : BufTy).Contents (Elt F)) (w1l w1r : (⟨S64x64, .f32⟩ : BufTy).Contents (Elt F)) (b1 : (⟨S64, .f32⟩ : BufTy).Contents (Elt F)) : (⟨S100000x64, .f32⟩ : BufTy).Contents (Elt F) :=
  relu (layer (meanAgg x ei) x w1l w1r b1)

/-- The output features. -/
def embed (x : (⟨S100000x64, .f32⟩ : BufTy).Contents (Elt F)) (ei : (⟨S2x1000000, .i32⟩ : BufTy).Contents (Elt F)) (w1l w1r : (⟨S64x64, .f32⟩ : BufTy).Contents (Elt F)) (b1 : (⟨S64, .f32⟩ : BufTy).Contents (Elt F)) (w2l w2r : (⟨S64x64, .f32⟩ : BufTy).Contents (Elt F)) (b2 : (⟨S64, .f32⟩ : BufTy).Contents (Elt F)) :
    (⟨S100000x64, .f32⟩ : BufTy).Contents (Elt F) :=
  layer (meanAgg (hidden x ei w1l w1r b1) ei) (hidden x ei w1l w1r b1) w2l w2r b2

def labelRow0 (eli : (⟨S2x200000, .i32⟩ : BufTy).Contents (Elt F)) : (⟨S200000, .i32⟩ : BufTy).Contents (Elt F) :=
  shapeCast _ (extractStridedSlice S1x200000 ![0, 0] eli slices_S2x200000_S1x200000_0_0) shapeCasts_S1x200000_S200000
def labelRow1 (eli : (⟨S2x200000, .i32⟩ : BufTy).Contents (Elt F)) : (⟨S200000, .i32⟩ : BufTy).Contents (Elt F) :=
  shapeCast _ (extractStridedSlice S1x200000 ![1, 0] eli slices_S2x200000_S1x200000_1_0) shapeCasts_S1x200000_S200000

/-- A flat array of row numbers as gather indices: a negative index counts from the end. -/
def wrapIdx (r : (⟨S200000, .i32⟩ : BufTy).Contents (Elt F)) : (⟨S200000x1, .i32⟩ : BufTy).Contents (Elt F) :=
  broadcastInDim S200000x1 ![0] bcast_S200000_S200000x1_0
    (select (cmpi .slt r (broadcastInDim S200000 ![] bcast_S_S200000 (constantI S_ 32 0#32)))
      (addi r (broadcastInDim S200000 ![] bcast_S_S200000 (constantI S_ 32 100000#32))) r)

/-- The rows of `z` at one end of every labelled edge. -/
def endRows (z : (⟨S100000x64, .f32⟩ : BufTy).Contents (Elt F)) (r : (⟨S200000, .i32⟩ : BufTy).Contents (Elt F)) : (⟨S200000x64, .f32⟩ : BufTy).Contents (Elt F) :=
  Host.gather gather_S100000x64_S200000x1_S200000x64_1_0_n_n_0_1_164 z (wrapIdx r)

/-- The dot product of the two end rows of every labelled edge. -/
def score (p q : (⟨S200000x64, .f32⟩ : BufTy).Contents (Elt F)) : (⟨S200000, .f32⟩ : BufTy).Contents (Elt F) :=
  Host.reduceAdd (mulf p q) (constant S_ .f32 0x00000000#32) reducesTo_S200000x64_S200000_d1 h_S_

/-- The whole network. -/
def out (x : (⟨S100000x64, .f32⟩ : BufTy).Contents (Elt F)) (ei : (⟨S2x1000000, .i32⟩ : BufTy).Contents (Elt F)) (eli : (⟨S2x200000, .i32⟩ : BufTy).Contents (Elt F)) (w1l w1r : (⟨S64x64, .f32⟩ : BufTy).Contents (Elt F)) (b1 : (⟨S64, .f32⟩ : BufTy).Contents (Elt F))
    (w2l w2r : (⟨S64x64, .f32⟩ : BufTy).Contents (Elt F)) (b2 : (⟨S64, .f32⟩ : BufTy).Contents (Elt F)) : (⟨S200000, .f32⟩ : BufTy).Contents (Elt F) :=
  score (endRows (embed x ei w1l w1r b1 w2l w2r b2) (labelRow0 eli)) (endRows (embed x ei w1l w1r b1 w2l w2r b2) (labelRow1 eli))

end Cert.Sage

end
-- ==== Proof.RefIs.lean ====
/-
  The reference computes the network: its run's result term is `Sage.out` of the argument arrays.

  The reference's @main spells the same host operations in the same order as the definitions of the specification (it
  recomputes the edge slices and the in-degree for the second layer, which as pure terms are the first layer's), so
  once both sides are unfolded the two terms are the same text.
-/
import proofs.«115666_j26577257628190_1_alg».proof.Proof.Spec

noncomputable section

namespace Cert.Sage

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
theorem reference_eq (m : (ℓ : Loc nD τ sig) → Buf (Elt F) ℓ) (c : Dev nD) :
    Cert.ReferenceIdeal.Value.res_main_v78 m c
      = out (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v78 out score endRows wrapIdx labelRow0 labelRow1 embed hidden relu layer meanAgg degCol dstIdx srcIdx edgeRow0 edgeRow1
  rfl

end Cert.Sage

end
-- ==== Proof.Bodies.lean ====
/-
  The three kernel bodies read at an index, at the exact instance.

  A linear-layer body takes a block of 10000 rows of the averaged features and of the features themselves, the two
  64×64 weight matrices and the bias row, and stores (two matrix products into zero accumulators, added, plus the bias
  row repeated down the block; the first layer then takes max(·, 0)).  Changes of float format are the identity on
  extended reals, so entry (p, q) of what it stores is

      Σ_k a[p, k] · W_l[k, q]  +  Σ_k y[p, k] · W_r[k, q]  +  b[0, q].

  The scoring body multiplies two blocks of 16384 rows entry by entry and sums each row: entry (p, 0) of what it stores
  is Σ_k s[p, k] · d[p, k].
-/
import proofs.«115666_j26577257628190_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Whole

open Cert.KernelIdeal Cert.KernelIdeal.Gen Idealize.ShloMosaic Idealize.ShloMosaic.TcCoe Idealize.SL.Sem

/-- Entry (row of `j`, `k`) of a block of rows. -/
abbrev blkRow (j : S10000x64.Idx) (k : Fin 64) : S10000x64.Idx := fun a => match a with
  | ⟨0, _⟩ => ⟨(j 0).val, (j 0).isLt⟩
  | ⟨1, _⟩ => ⟨k.val, k.isLt⟩
/-- Entry (`k`, column of `j`) of a weight matrix. -/
abbrev wCol (j : S10000x64.Idx) (k : Fin 64) : S64x64.Idx := fun a => match a with
  | ⟨0, _⟩ => ⟨k.val, k.isLt⟩
  | ⟨1, _⟩ => ⟨(j 1).val, (j 1).isLt⟩
/-- Entry (0, column of `j`) of the bias row. -/
abbrev bCol (j : S10000x64.Idx) : S1x64.Idx := fun a => match a with
  | ⟨0, _⟩ => ⟨0, Nat.one_pos⟩
  | ⟨1, _⟩ => ⟨(j 1).val, (j 1).isLt⟩

local notation "dotB" => dot_S10000x64_S64x64_S10000x64_1_0_0_1_n_n

theorem lhsB_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsB_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsB_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsB_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block's matrix product into a zero accumulator, at an entry: the sum over the 64 shared coordinates. -/
theorem blockDot_apply {φ₁ φ₂ : FTy} (l : FVec Ideal S10000x64 φ₁) (r : FVec Ideal S64x64 φ₂) (j : S10000x64.Idx) :
    FloatOps.matmul dot_S10000x64_S64x64_S10000x64_1_0_0_1_n_n none l r (constant S10000x64 .f32 0x00000000#32) j
      = ∑ k : Fin 64, l (blkRow j k) * r (wCol j k) := by
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = blkRow j k := funext fun a => Fin.ext (by
    match a with
    | ⟨0, _⟩ => exact lhsB_0 _ _
    | ⟨1, _⟩ => exact (lhsB_1 _ _).trans hk)
  have er : dot_S10000x64_S64x64_S10000x64_1_0_0_1_n_n.rhsIdx j ((ValueIdx.contrEquiv1 dot_S10000x64_S64x64_S10000x64_1_0_0_1_n_n 64 rfl rfl).symm k) = wCol j k := funext fun a => Fin.ext (by
    match a with
    | ⟨0, _⟩ => exact (rhsB_0 _ _).trans hk
    | ⟨1, _⟩ => exact rhsB_1 _ _)
  rw [el, er]

/-- The bias row repeated down a block, at an entry. -/
theorem biasRows_apply (b : FVec Ideal S1x64 .f32) (j : S10000x64.Idx) :
    broadcastTo S10000x64 b broadcasts_S1x64_S10000x64 j = b (bCol j) :=
  broadcastTo_apply b broadcasts_S1x64_S10000x64 j (bCol j) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-- What a linear-layer body computes at an entry, before any clamp. -/
def linEntry (a y : S10000x64.Idx → EReal) (wl wr : S64x64.Idx → EReal) (b : S1x64.Idx → EReal) (j : S10000x64.Idx) : EReal :=
  (∑ k : Fin 64, a (blkRow j k) * wl (wCol j k)) + (∑ k : Fin 64, y (blkRow j k) * wr (wCol j k)) + b (bCol j)

/-- The second layer's body at an entry. -/
theorem pay_layer2 (x0 x1 : Vec Ideal S10000x64 .f32) (x2 x3 : Vec Ideal S64x64 .f32) (x4 : Vec Ideal S1x64 .f32) (j : S10000x64.Idx) :
    k1_pay1 (F := Ideal) x0 x1 x2 x3 x4 j = linEntry x0 x1 x2 x3 x4 j := by
  unfold k1_pay1 linEntry
  simp only [shapeCast_self]
  show (FloatOps.matmul (F := Ideal) dot_S10000x64_S64x64_S10000x64_1_0_0_1_n_n none (truncf .bf16 x0 bitsLt_bf16_f32 : FVec Ideal S10000x64 .bf16) (truncf .bf16 x2 bitsLt_bf16_f32 : FVec Ideal S64x64 .bf16) (constant S10000x64 .f32 0x00000000#32) j
      + FloatOps.matmul (F := Ideal) dot_S10000x64_S64x64_S10000x64_1_0_0_1_n_n none (truncf .bf16 x1 bitsLt_bf16_f32 : FVec Ideal S10000x64 .bf16) (truncf .bf16 x3 bitsLt_bf16_f32 : FVec Ideal S64x64 .bf16) (constant S10000x64 .f32 0x00000000#32) j
      + broadcastTo S10000x64 x4 broadcasts_S1x64_S10000x64 j : EReal) = _
  rw [blockDot_apply, blockDot_apply, biasRows_apply]
  rfl

/-- The first layer's body at an entry: the same, clamped below at zero. -/
theorem pay_layer1 (x0 x1 : Vec Ideal S10000x64 .f32) (x2 x3 : Vec Ideal S64x64 .f32) (x4 : Vec Ideal S1x64 .f32) (j : S10000x64.Idx) :
    k0_pay1 (F := Ideal) x0 x1 x2 x3 x4 j = max (linEntry x0 x1 x2 x3 x4 j) (Ideal.ofBits .f32 0x00000000#32) := by
  unfold k0_pay1 linEntry
  simp only [shapeCast_self]
  show (max (FloatOps.matmul (F := Ideal) dot_S10000x64_S64x64_S10000x64_1_0_0_1_n_n none (truncf .bf16 x0 bitsLt_bf16_f32 : FVec Ideal S10000x64 .bf16) (truncf .bf16 x2 bitsLt_bf16_f32 : FVec Ideal S64x64 .bf16) (constant S10000x64 .f32 0x00000000#32) j
      + FloatOps.matmul (F := Ideal) dot_S10000x64_S64x64_S10000x64_1_0_0_1_n_n none (truncf .bf16 x1 bitsLt_bf16_f32 : FVec Ideal S10000x64 .bf16) (truncf .bf16 x3 bitsLt_bf16_f32 : FVec Ideal S64x64 .bf16) (constant S10000x64 .f32 0x00000000#32) j
      + broadcastTo S10000x64 x4 broadcasts_S1x64_S10000x64 j) (Ideal.ofBits .f32 0x00000000#32) : EReal) = _
  rw [blockDot_apply, blockDot_apply, biasRows_apply]
  rfl

/-! ## The scoring body -/

/-- Entry (row of `j`, `k`) of a block of 16384 rows. -/
abbrev scRow (j : S16384x1.Idx) (k : Fin 64) : S16384x64.Idx := fun a => match a with
  | ⟨0, _⟩ => ⟨(j 0).val, (j 0).isLt⟩
  | ⟨1, _⟩ => ⟨k.val, k.isLt⟩

/-- The row of `j` as an index of the flat array of row sums. -/
abbrev scFlat (j : S16384x1.Idx) : S16384.Idx := fun a => match a with
  | ⟨0, _⟩ => ⟨(j 0).val, (j 0).isLt⟩

/-- The sum of the products along the row of `j`. -/
def rowDot (s d : S16384x64.Idx → EReal) (j : S16384x1.Idx) : EReal := ∑ k : Fin 64, s (scRow j k) * d (scRow j k)

/-- The scoring body at an entry: the row's sum of products. -/
theorem pay_score (x0 x1 : Vec Ideal S16384x64 .f32) (j : S16384x1.Idx) :
    k2_pay1 (F := Ideal) x0 x1 j = rowDot x0 x1 j := by
  unfold k2_pay1 rowDot
  simp only [shapeCast_self]
  have hj1 : (j 1).val = 0 := by have h1 : (j 1).val < 1 := (j 1).isLt; omega
  rw [shapeCast_apply _ shapeCasts_S16384_S16384x1 j (scFlat j)
    (by rw [Shape.rowMajor_val_one, Shape.rowMajor_val_two]; show (j 0).val = (j 0).val * 1 + (j 1).val; omega)]
  refine (Ideal.multiReduction_add_single (mulf x0 x1 : FVec Ideal S16384x64 .f32) 0x00000000#32 reduces_S16384x64_S16384 _ _ (scFlat j)).trans ?_
  refine Finset.sum_congr rfl fun k _ => ?_
  have e : reduces_S16384x64_S16384.lift (scFlat j) k = scRow j k := funext fun a => Fin.ext (by
    match a with
    | ⟨0, _⟩ => rfl
    | ⟨1, _⟩ => rfl)
  rw [e]
  rfl

end Cert.KernelIdeal.Whole

end
-- ==== Proof.Regions.lean ====
/-
  What each of the three regions leaves in its result array, as ONE function of the arrays it finds on entry.

  The two linear layers run on a grid of ten points; point `t` reads rows 10000·t … 10000·t + 9999 of the averaged
  features and of the features, the whole weight matrices and the bias row, and writes the same rows of the result.  The
  body's entry (p, q) only looks at row p of its row blocks, so the block written at point `t` is the restriction to
  those rows of the whole-array function

      layer(a, y, W_l, W_r, b)[i, q] = Σ_k a[i, k] · W_l[k, q] + Σ_k y[i, k] · W_r[k, q] + b[0, q]

  (clamped below at zero in the first layer), and the ten blocks tile the array.  The scoring region runs on thirteen
  points of 16384 rows and leaves the row sums of products of its two (zero-padded) operands.
-/
import proofs.«115666_j26577257628190_1_alg».proof.Proof.Gen.KernelIdeal.Frame
import proofs.«115666_j26577257628190_1_alg».proof.Proof.Bodies

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat Cfg Window)

theorem hz2 : (![0, 0] : Fin 2 → Nat) = fun _ => 0 := funext fun a => by fin_cases a <;> rfl

/-- Entry (row of `i`, `k`) of a feature array. -/
abbrev arrRow (i : S100000x64.Idx) (k : Fin 64) : S100000x64.Idx := fun a => match a with
  | ⟨0, _⟩ => ⟨(i 0).val, (i 0).isLt⟩
  | ⟨1, _⟩ => ⟨k.val, k.isLt⟩
/-- Entry (`k`, column of `i`) of a weight matrix. -/
abbrev arrCol (i : S100000x64.Idx) (k : Fin 64) : S64x64.Idx := fun a => match a with
  | ⟨0, _⟩ => ⟨k.val, k.isLt⟩
  | ⟨1, _⟩ => ⟨(i 1).val, (i 1).isLt⟩
/-- Entry (0, column of `i`) of the bias row. -/
abbrev arrBias (i : S100000x64.Idx) : S1x64.Idx := fun a => match a with
  | ⟨0, _⟩ => ⟨0, Nat.one_pos⟩
  | ⟨1, _⟩ => ⟨(i 1).val, (i 1).isLt⟩

/-- The second layer on whole arrays, entry by entry. -/
def layer2Fn (a y : S100000x64.Idx → EReal) (wl wr : S64x64.Idx → EReal) (b : S1x64.Idx → EReal) : S100000x64.Idx → EReal := fun i =>
  (∑ k : Fin 64, a (arrRow i k) * wl (arrCol i k)) + (∑ k : Fin 64, y (arrRow i k) * wr (arrCol i k)) + b (arrBias i)

/-- The first layer on whole arrays: the same, clamped below at zero. -/
def layer1Fn (a y : S100000x64.Idx → EReal) (wl wr : S64x64.Idx → EReal) (b : S1x64.Idx → EReal) : S100000x64.Idx → EReal := fun i =>
  max (layer2Fn a y wl wr b i) (Ideal.ofBits .f32 0x00000000#32)

variable (V : (c : Dev nD) → (b : Ref sig .tc) → Buf (Elt Ideal) ((c : Thread nD τ).loc b))

/-! ## Region 0: the first layer (with the clamp) -/

/-- The grid of region 0: point `t` takes row block `t` of the two row-blocked operands and of the result, and the
    whole of the weights and the bias row (decided over the ten points). -/
theorem blocks0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the layer's whole-array function of the arrays as the region finds them. -/
theorem flushed0_eq (c : Dev nD) (t : Fin cfg0.N) :
    (dat0 V c).flushed 5 t = ((cfg0.win 5).blk t).view.read (Elt Ideal)
      (layer1Fn (V c main_v22) (V c main_arg0) (V c main_arg3) (V c main_arg4) (V c main_v23)) := by
  show (cfg0.win 5).cut (grid0.coords t) ((dat0 V c).after 5 t) = _
  rw [after0_5]
  unfold out0_5
  rw [View.canon_unit_zero hz2]
  simp only [View.ld_unit_zero (S := S10000x64) hz2, View.ld_unit_zero (S := S64x64) hz2, View.ld_unit_zero (S := S1x64) hz2]
  obtain ⟨e00, e01, e10, e11, e20, e21, e30, e31, e40, e41, e50, e51⟩ := blocks0 t
  funext j
  have hj0 : (j 0).val < 10000 := (j 0).isLt
  have hj1 : (j 1).val < 64 := (j 1).isLt
  refine (pay_layer1 _ _ _ _ _ j).trans ?_
  show max (linEntry (fun y => V c main_v22 (((cfg0.win 0).blk t).view.emb y)) (fun y => V c main_arg0 (((cfg0.win 1).blk t).view.emb y))
      (fun y => V c main_arg3 (((cfg0.win 2).blk t).view.emb y)) (fun y => V c main_arg4 (((cfg0.win 3).blk t).view.emb y))
      (fun y => V c main_v23 (((cfg0.win 4).blk t).view.emb y)) j) (Ideal.ofBits .f32 0x00000000#32)
    = layer1Fn (V c main_v22) (V c main_arg0) (V c main_arg3) (V c main_arg4) (V c main_v23) (((cfg0.win 5).blk t).view.emb j)
  unfold layer1Fn layer2Fn linEntry
  have hA : ∀ k : Fin 64, ((cfg0.win 0).blk t).view.emb (blkRow j k) = arrRow (((cfg0.win 5).blk t).view.emb j) k := fun k => by
    funext a; apply Fin.ext
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 64 + 1 * k.val = k.val; omega
  have hY : ∀ k : Fin 64, ((cfg0.win 1).blk t).view.emb (blkRow j k) = arrRow (((cfg0.win 5).blk t).view.emb j) k := fun k => by
    funext a; apply Fin.ext
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 64 + 1 * k.val = k.val; omega
  have hL : ∀ k : Fin 64, ((cfg0.win 2).blk t).view.emb (wCol j k) = arrCol (((cfg0.win 5).blk t).view.emb j) k := fun k => by
    funext a; apply Fin.ext
    match a with
    | ⟨0, _⟩ => show win0_2.index t (0 : Fin 2) * 64 + 1 * k.val = k.val; omega
    | ⟨1, _⟩ => show win0_2.index t (1 : Fin 2) * 64 + 1 * (j 1).val = win0_5.index t (1 : Fin 2) * 64 + 1 * (j 1).val; omega
  have hR : ∀ k : Fin 64, ((cfg0.win 3).blk t).view.emb (wCol j k) = arrCol (((cfg0.win 5).blk t).view.emb j) k := fun k => by
    funext a; apply Fin.ext
    match a with
    | ⟨0, _⟩ => show win0_3.index t (0 : Fin 2) * 64 + 1 * k.val = k.val; omega
    | ⟨1, _⟩ => show win0_3.index t (1 : Fin 2) * 64 + 1 * (j 1).val = win0_5.index t (1 : Fin 2) * 64 + 1 * (j 1).val; omega
  have hB : ((cfg0.win 4).blk t).view.emb (bCol j) = arrBias (((cfg0.win 5).blk t).view.emb j) := by
    funext a; apply Fin.ext
    match a with
    | ⟨0, _⟩ => show win0_4.index t (0 : Fin 2) * 1 + 1 * 0 = 0; omega
    | ⟨1, _⟩ => show win0_4.index t (1 : Fin 2) * 64 + 1 * (j 1).val = win0_5.index t (1 : Fin 2) * 64 + 1 * (j 1).val; omega
  simp only [hA, hY, hL, hR, hB]

/-- An index of the array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v24).slice (win0_5.rect t)).set ↔ _
  rw [View.set_slice_whole, Rect.mem_set_unit]
  exact Iff.rfl

/-- Every row lies in the block of the point numbered by its row block. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  refine ⟨⟨(i 0).val / 10000, by rw [show cfg0.N = 10 from N_0]; omega⟩, flush0_5 _, ?_⟩
  rw [mem_blk0]
  obtain ⟨-, -, -, -, -, -, -, -, -, -, e50, e51⟩ := blocks0 ⟨(i 0).val / 10000, by rw [show cfg0.N = 10 from N_0]; omega⟩
  intro a
  match a with
  | ⟨0, _⟩ => show win0_5.index _ (0 : Fin 2) * 10000 ≤ (i 0).val ∧ (i 0).val < win0_5.index _ (0 : Fin 2) * 10000 + 10000; rw [e50]; show (i 0).val / 10000 * 10000 ≤ (i 0).val ∧ (i 0).val < (i 0).val / 10000 * 10000 + 10000; omega
  | ⟨1, _⟩ => show win0_5.index _ (1 : Fin 2) * 64 ≤ (i 1).val ∧ (i 1).val < win0_5.index _ (1 : Fin 2) * 64 + 64; rw [e51]; omega

/-- THE ARRAY region 0 leaves: the layer's function of the arrays it found. -/
theorem final0 (c : Dev nD) : (dat0 V c).arrAt 5 cfg0.N
    = layer1Fn (V c main_v22) (V c main_arg0) (V c main_arg3) (V c main_arg4) (V c main_v23) :=
  (dat0 V c).arrAt_eq_of_cover 5 _ (fun t _ => flushed0_eq V c t) (cover0)

/-! ## Region 1: the second layer -/

/-- The grid of region 1: point `t` takes row block `t` of the two row-blocked operands and of the result, and the
    whole of the weights and the bias row (decided over the ten points). -/
theorem blocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the layer's whole-array function of the arrays as the region finds them. -/
theorem flushed1_eq (c : Dev nD) (t : Fin cfg1.N) :
    (dat1 V c).flushed 5 t = ((cfg1.win 5).blk t).view.read (Elt Ideal)
      (layer2Fn (V c main_v36) (V c main_v24) (V c main_arg6) (V c main_arg7) (V c main_v37)) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x64) hz2, View.ld_unit_zero (S := S1x64) hz2]
  obtain ⟨e00, e01, e10, e11, e20, e21, e30, e31, e40, e41, e50, e51⟩ := blocks1 t
  funext j
  have hj0 : (j 0).val < 10000 := (j 0).isLt
  have hj1 : (j 1).val < 64 := (j 1).isLt
  refine (pay_layer2 _ _ _ _ _ j).trans ?_
  show linEntry (fun y => V c main_v36 (((cfg1.win 0).blk t).view.emb y)) (fun y => V c main_v24 (((cfg1.win 1).blk t).view.emb y))
      (fun y => V c main_arg6 (((cfg1.win 2).blk t).view.emb y)) (fun y => V c main_arg7 (((cfg1.win 3).blk t).view.emb y))
      (fun y => V c main_v37 (((cfg1.win 4).blk t).view.emb y)) j
    = layer2Fn (V c main_v36) (V c main_v24) (V c main_arg6) (V c main_arg7) (V c main_v37) (((cfg1.win 5).blk t).view.emb j)
  unfold layer2Fn linEntry
  have hA : ∀ k : Fin 64, ((cfg1.win 0).blk t).view.emb (blkRow j k) = arrRow (((cfg1.win 5).blk t).view.emb j) k := fun k => by
    funext a; apply Fin.ext
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  have hY : ∀ k : Fin 64, ((cfg1.win 1).blk t).view.emb (blkRow j k) = arrRow (((cfg1.win 5).blk t).view.emb j) k := fun k => by
    funext a; apply Fin.ext
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 64 + 1 * k.val = k.val; omega
  have hL : ∀ k : Fin 64, ((cfg1.win 2).blk t).view.emb (wCol j k) = arrCol (((cfg1.win 5).blk t).view.emb j) k := fun k => by
    funext a; apply Fin.ext
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  have hR : ∀ k : Fin 64, ((cfg1.win 3).blk t).view.emb (wCol j k) = arrCol (((cfg1.win 5).blk t).view.emb j) k := fun k => by
    funext a; apply Fin.ext
    match a with
    | ⟨0, _⟩ => show win1_3.index t (0 : Fin 2) * 64 + 1 * k.val = k.val; omega
    | ⟨1, _⟩ => show win1_3.index t (1 : Fin 2) * 64 + 1 * (j 1).val = win1_5.index t (1 : Fin 2) * 64 + 1 * (j 1).val; omega
  have hB : ((cfg1.win 4).blk t).view.emb (bCol j) = arrBias (((cfg1.win 5).blk t).view.emb j) := by
    funext a; apply Fin.ext
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega
  simp only [hA, hY, hL, hR, hB]

/-- An index of the array is in point `t`'s block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v38).slice (win1_5.rect t)).set ↔ _
  rw [View.set_slice_whole, Rect.mem_set_unit]
  exact Iff.rfl

/-- Every row lies in the block of the point numbered by its row block. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  refine ⟨⟨(i 0).val / 10000, by rw [show cfg1.N = 10 from N_1]; omega⟩, flush1_5 _, ?_⟩
  rw [mem_blk1]
  obtain ⟨-, -, -, -, -, -, -, -, -, -, e50, e51⟩ := blocks1 ⟨(i 0).val / 10000, by rw [show cfg1.N = 10 from N_1]; omega⟩
  intro a
  match a with
  | ⟨0, _⟩ => show win1_5.index _ (0 : Fin 2) * 10000 ≤ (i 0).val ∧ (i 0).val < win1_5.index _ (0 : Fin 2) * 10000 + 10000; rw [e50]; show (i 0).val / 10000 * 10000 ≤ (i 0).val ∧ (i 0).val < (i 0).val / 10000 * 10000 + 10000; omega
  | ⟨1, _⟩ => show win1_5.index _ (1 : Fin 2) * 64 ≤ (i 1).val ∧ (i 1).val < win1_5.index _ (1 : Fin 2) * 64 + 64; rw [e51]; omega

/-- THE ARRAY region 1 leaves: the layer's function of the arrays it found. -/
theorem final1 (c : Dev nD) : (dat1 V c).arrAt 5 cfg1.N
    = layer2Fn (V c main_v36) (V c main_v24) (V c main_arg6) (V c main_arg7) (V c main_v37) :=
  (dat1 V c).arrAt_eq_of_cover 5 _ (fun t _ => flushed1_eq V c t) (cover1)

/-! ## Region 2: the scores -/

/-- Entry (row of `i`, `k`) of a padded array of end rows. -/
abbrev padRow (i : S212992x1.Idx) (k : Fin 64) : S212992x64.Idx := fun a => match a with
  | ⟨0, _⟩ => ⟨(i 0).val, (i 0).isLt⟩
  | ⟨1, _⟩ => ⟨k.val, k.isLt⟩

/-- The row sums of products of two arrays of rows, as a column. -/
def scoreFn (p q : S212992x64.Idx → EReal) : S212992x1.Idx → EReal := fun i =>
  ∑ k : Fin 64, p (padRow i k) * q (padRow i k)

/-- The grid of region 2: point `t` takes row block `t` of both operands and of the result (decided over the thirteen points). -/
theorem blocks2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the row sums of products of the two arrays as the region finds them. -/
theorem flushed2_eq (c : Dev nD) (t : Fin cfg2.N) :
    (dat2 V c).flushed 2 t = ((cfg2.win 2).blk t).view.read (Elt Ideal) (scoreFn (V c main_v57) (V c main_v58)) := by
  show (cfg2.win 2).cut (grid2.coords t) ((dat2 V c).after 2 t) = _
  rw [after2_2]
  unfold out2_2
  rw [View.canon_unit_zero hz2]
  simp only [View.ld_unit_zero (S := S16384x64) hz2]
  obtain ⟨e00, e01, e10, e11, e20, e21⟩ := blocks2 t
  funext j
  have hj0 : (j 0).val < 16384 := (j 0).isLt
  have hj1 : (j 1).val < 1 := (j 1).isLt
  refine (pay_score _ _ j).trans ?_
  show rowDot (fun y => V c main_v57 (((cfg2.win 0).blk t).view.emb y)) (fun y => V c main_v58 (((cfg2.win 1).blk t).view.emb y)) j
    = scoreFn (V c main_v57) (V c main_v58) (((cfg2.win 2).blk t).view.emb j)
  unfold scoreFn rowDot
  have hP : ∀ k : Fin 64, ((cfg2.win 0).blk t).view.emb (scRow j k) = padRow (((cfg2.win 2).blk t).view.emb j) k := fun k => by
    funext a; apply Fin.ext
    match a with
    | ⟨0, _⟩ => show win2_0.index t (0 : Fin 2) * 16384 + 1 * (j 0).val = win2_2.index t (0 : Fin 2) * 16384 + 1 * (j 0).val; omega
    | ⟨1, _⟩ => show win2_0.index t (1 : Fin 2) * 64 + 1 * k.val = k.val; omega
  have hQ : ∀ k : Fin 64, ((cfg2.win 1).blk t).view.emb (scRow j k) = padRow (((cfg2.win 2).blk t).view.emb j) k := fun k => by
    funext a; apply Fin.ext
    match a with
    | ⟨0, _⟩ => show win2_1.index t (0 : Fin 2) * 16384 + 1 * (j 0).val = win2_2.index t (0 : Fin 2) * 16384 + 1 * (j 0).val; omega
    | ⟨1, _⟩ => show win2_1.index t (1 : Fin 2) * 64 + 1 * k.val = k.val; omega
  simp only [hP, hQ]

/-- An index of the array is in point `t`'s block iff each coordinate is in the block's range on its axis. -/
theorem mem_blk2 (t : Fin cfg2.N) (i : S212992x1.Idx) :
    i ∈ ((cfg2.win 2).blk t).view.set ↔ ∀ a : Fin 2, win2_2.index t a * S16384x1.size a ≤ (i a).val ∧ (i a).val < win2_2.index t a * S16384x1.size a + S16384x1.size a := by
  show i ∈ ((View.whole main_v59).slice (win2_2.rect t)).set ↔ _
  rw [View.set_slice_whole, Rect.mem_set_unit]
  exact Iff.rfl

/-- Every row lies in the block of the point numbered by its row block. -/
theorem cover2 (i : S212992x1.Idx) : ∃ t : Fin cfg2.N, (cfg2.win 2).flush t = true ∧ i ∈ ((cfg2.win 2).blk t).view.set := by
  have hi0 : (i 0).val < 212992 := (i 0).isLt
  have hi1 : (i 1).val < 1 := (i 1).isLt
  refine ⟨⟨(i 0).val / 16384, by rw [show cfg2.N = 13 from N_2]; omega⟩, flush2_2 _, ?_⟩
  rw [mem_blk2]
  obtain ⟨-, -, -, -, e20, e21⟩ := blocks2 ⟨(i 0).val / 16384, by rw [show cfg2.N = 13 from N_2]; omega⟩
  intro a
  match a with
  | ⟨0, _⟩ => show win2_2.index _ (0 : Fin 2) * 16384 ≤ (i 0).val ∧ (i 0).val < win2_2.index _ (0 : Fin 2) * 16384 + 16384; rw [e20]; show (i 0).val / 16384 * 16384 ≤ (i 0).val ∧ (i 0).val < (i 0).val / 16384 * 16384 + 16384; omega
  | ⟨1, _⟩ => show win2_2.index _ (1 : Fin 2) * 1 ≤ (i 1).val ∧ (i 1).val < win2_2.index _ (1 : Fin 2) * 1 + 1; rw [e21]; omega

/-- THE ARRAY region 2 leaves: the row sums of products of the two arrays it found. -/
theorem final2 (c : Dev nD) : (dat2 V c).arrAt 2 cfg2.N = scoreFn (V c main_v57) (V c main_v58) :=
  (dat2 V c).arrAt_eq_of_cover 2 _ (fun t _ => flushed2_eq V c t) (cover2)

end Cert.KernelIdeal.Whole

end
-- ==== Proof.Bridge.lean ====
/-
  The regions' entry-by-entry functions are the reference's whole-array operations.

  * A linear layer.  The host's `dot_general` of a [100000, 64] array with a [64, 64] matrix is, entry by entry, the sum
    over the 64 shared coordinates; the bias repeated along the rows reads the bias at the entry's column; so
    `a · W_l + y · W_r + b` at (i, q) is Σ_k a[i, k] · W_l[k, q] + Σ_k y[i, k] · W_r[k, q] + b[q], which is what a
    region leaves there when its fifth operand is the bias reshaped to one row.  Nothing is re-associated: both sides
    add the two sums first and the bias last.
  * The clamp: max(·, 0) entry by entry on both sides.
  * The scores.  The kernel pads both arrays of end rows with 12992 zero rows, sums the products along each row, drops
    the padding rows again and flattens; a kept row only ever reads kept rows, so entry e is Σ_k p[e, k] · q[e, k]; the
    host's sum starts from zero and adds the same 64 products.
-/
import proofs.«115666_j26577257628190_1_alg».proof.Proof.Spec
import proofs.«115666_j26577257628190_1_alg».proof.Proof.Regions
import Idealize.ShloMosaic.Lib.KernelVsHost

noncomputable section

namespace Cert.Bridge

open Idealize.ShloMosaic Idealize.ShloMosaic.TcCoe Idealize.SL.Sem
open Cert.KernelIdeal.Whole

/-- The host's product of a feature array with a weight matrix, at an entry. -/
theorem dot_apply (a : (⟨Cert.ReferenceIdeal.S100000x64, .f32⟩ : BufTy).Contents (Elt Ideal)) (w : (⟨Cert.ReferenceIdeal.S64x64, .f32⟩ : BufTy).Contents (Elt Ideal))
    (i : Cert.ReferenceIdeal.S100000x64.Idx) :
    Host.dotGeneral (F := Ideal) (φ₁ := .f32) (φ₂ := .f32) Cert.ReferenceIdeal.dot_S100000x64_S64x64_S100000x64_1_0_0_1_n_n none a w i
      = ∑ k : Fin 64, a (arrRow i k) * w (arrCol i k) :=
  Cert.ReferenceIdeal.Read.val_main_v24_apply a w i

/-- The bias repeated along the rows, at an entry: the bias at the entry's column. -/
theorem bias_apply (b : (⟨Cert.ReferenceIdeal.S64, .f32⟩ : BufTy).Contents (Elt Ideal)) (i : Cert.ReferenceIdeal.S100000x64.Idx) :
    broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b) i
      = b (Cert.ReferenceIdeal.Read.idx_main_v26 (Cert.ReferenceIdeal.Read.idx_main_v27 i)) :=
  (Cert.ReferenceIdeal.Read.val_main_v27_apply b i).trans (Cert.ReferenceIdeal.Read.val_main_v26_apply b _)

/-- The bias reshaped to one row, read at the entry's column. -/
theorem biasRow_apply (b : (⟨Cert.KernelIdeal.S64, .f32⟩ : BufTy).Contents (Elt Ideal)) (i : Cert.KernelIdeal.S100000x64.Idx) :
    shapeCast Cert.KernelIdeal.S1x64 b Cert.KernelIdeal.Facts₀.shapeCasts_S64_S1x64 (arrBias i)
      = b (Cert.ReferenceIdeal.Read.idx_main_v26 (Cert.ReferenceIdeal.Read.idx_main_v27 i)) :=
  shapeCast_apply b Cert.KernelIdeal.Facts₀.shapeCasts_S64_S1x64 (arrBias i) _ (by
    rw [Shape.rowMajor_val_one, Shape.rowMajor_val_two]
    show (i 1).val = 0 * 64 + (i 1).val
    omega)

/-- THE SECOND LAYER: what its region leaves is the reference's `a · W_l + y · W_r + b`. -/
theorem layer2_eq (a y : (⟨Cert.ReferenceIdeal.S100000x64, .f32⟩ : BufTy).Contents (Elt Ideal)) (wl wr : (⟨Cert.ReferenceIdeal.S64x64, .f32⟩ : BufTy).Contents (Elt Ideal))
    (b : (⟨Cert.ReferenceIdeal.S64, .f32⟩ : BufTy).Contents (Elt Ideal)) :
    layer2Fn a y wl wr (shapeCast Cert.KernelIdeal.S1x64 b Cert.KernelIdeal.Facts₀.shapeCasts_S64_S1x64) = Cert.Sage.layer (F := Ideal) a y wl wr b := by
  funext i
  unfold layer2Fn Cert.Sage.layer
  show _ = (Host.dotGeneral (F := Ideal) (φ₁ := .f32) (φ₂ := .f32) Cert.ReferenceIdeal.dot_S100000x64_S64x64_S100000x64_1_0_0_1_n_n none a wl i
      + Host.dotGeneral (F := Ideal) (φ₁ := .f32) (φ₂ := .f32) Cert.ReferenceIdeal.dot_S100000x64_S64x64_S100000x64_1_0_0_1_n_n none y wr i
      + broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b) i : EReal)
  rw [dot_apply, dot_apply, bias_apply, biasRow_apply]

/-- THE FIRST LAYER: the same, clamped below at zero. -/
theorem layer1_eq (a y : (⟨Cert.ReferenceIdeal.S100000x64, .f32⟩ : BufTy).Contents (Elt Ideal)) (wl wr : (⟨Cert.ReferenceIdeal.S64x64, .f32⟩ : BufTy).Contents (Elt Ideal))
    (b : (⟨Cert.ReferenceIdeal.S64, .f32⟩ : BufTy).Contents (Elt Ideal)) :
    layer1Fn a y wl wr (shapeCast Cert.KernelIdeal.S1x64 b Cert.KernelIdeal.Facts₀.shapeCasts_S64_S1x64)
      = Cert.Sage.relu (F := Ideal) (Cert.Sage.layer (F := Ideal) a y wl wr b) := by
  funext i
  unfold layer1Fn
  rw [layer2_eq]
  unfold Cert.Sage.relu
  show _ = max (Cert.Sage.layer (F := Ideal) a y wl wr b i)
    (broadcastInDim Cert.ReferenceIdeal.S100000x64 ![] Cert.ReferenceIdeal.Facts₀.bcast_S_S100000x64 (constant (F := Ideal) Cert.ReferenceIdeal.S_ .f32 0x00000000#32) i)
  rw [show broadcastInDim Cert.ReferenceIdeal.S100000x64 ![] Cert.ReferenceIdeal.Facts₀.bcast_S_S100000x64 (constant (F := Ideal) Cert.ReferenceIdeal.S_ .f32 0x00000000#32) i
      = Ideal.ofBits .f32 0x00000000#32 from
    (Cert.ReferenceIdeal.Read.val_main_call0_v0_apply (F := Ideal) i).trans (Cert.ReferenceIdeal.Read.val_main_call0_cst_apply (F := Ideal) _)]

/-! ## The scores -/

/-- Entry (`e`, `k`) of an array of end rows. -/
abbrev endRow (e : Cert.ReferenceIdeal.S200000.Idx) (k : Fin 64) : Cert.ReferenceIdeal.S200000x64.Idx := fun a => match a with
  | ⟨0, _⟩ => ⟨(e 0).val, (e 0).isLt⟩
  | ⟨1, _⟩ => ⟨k.val, k.isLt⟩

/-- Row `e` of the kept rows, as an entry of the one-column array of kept scores and of the padded one. -/
abbrev keptAt (e : Cert.KernelIdeal.S200000.Idx) : Cert.KernelIdeal.S200000x1.Idx := fun a => match a with
  | ⟨0, _⟩ => ⟨(e 0).val, (e 0).isLt⟩
  | ⟨1, _⟩ => ⟨0, Nat.one_pos⟩
abbrev paddedAt (e : Cert.KernelIdeal.S200000.Idx) : Cert.KernelIdeal.S212992x1.Idx := fun a => match a with
  | ⟨0, _⟩ => ⟨(e 0).val, Nat.lt_trans (show (e 0).val < 200000 from (e 0).isLt) (show 200000 < 212992 by decide)⟩
  | ⟨1, _⟩ => ⟨0, Nat.one_pos⟩

/-- A kept row of a zero-padded array of end rows is the row itself. -/
theorem padded_apply (p : (⟨Cert.KernelIdeal.S200000x64, .f32⟩ : BufTy).Contents (Elt Ideal)) (z : (⟨Cert.KernelIdeal.S_, .f32⟩ : BufTy).Contents (Elt Ideal))
    (hp : Cert.KernelIdeal.S200000x64.Pads (![0, 0] : Fin 2 → Nat) ![12992, 0] ![0, 0] Cert.KernelIdeal.S212992x64) (hu : 0 < Cert.KernelIdeal.S_.numel)
    (e : Cert.KernelIdeal.S200000.Idx) (k : Fin 64) :
    pad Cert.KernelIdeal.S212992x64 ![0, 0] ![12992, 0] ![0, 0] p z hp hu (padRow (paddedAt e) k)
      = p (endRow e k) :=
  pad_apply_of_inside ![0, 0] ![12992, 0] ![0, 0] p z hp hu (padRow (paddedAt e) k) (endRow e k)
    (fun a => match a with
      | ⟨0, _⟩ => by show (e 0).val = 0 + (e 0).val * (0 + 1); omega
      | ⟨1, _⟩ => by show k.val = 0 + k.val * (0 + 1); omega)

/-- THE SCORES: pad, sum along the rows in the region, drop the padding, flatten — the host's sum of products along the rows. -/
theorem score_eq (p q : (⟨Cert.ReferenceIdeal.S200000x64, .f32⟩ : BufTy).Contents (Elt Ideal)) (z z' : (⟨Cert.KernelIdeal.S_, .f32⟩ : BufTy).Contents (Elt Ideal)) :
    shapeCast Cert.KernelIdeal.S200000
      (extractStridedSlice Cert.KernelIdeal.S200000x1 ![0, 0]
        (scoreFn (pad Cert.KernelIdeal.S212992x64 ![0, 0] ![12992, 0] ![0, 0] p z Cert.KernelIdeal.Facts₀.pads_S200000x64_S212992x64_0129920_000 Cert.KernelIdeal.Facts₀.h_S_)
                 (pad Cert.KernelIdeal.S212992x64 ![0, 0] ![12992, 0] ![0, 0] q z' Cert.KernelIdeal.Facts₀.pads_S200000x64_S212992x64_0129920_000 Cert.KernelIdeal.Facts₀.h_S_))
        Cert.KernelIdeal.Facts₀.slices_S212992x1_S200000x1_0_0)
      Cert.KernelIdeal.Facts₀.shapeCasts_S200000x1_S200000
    = Cert.Sage.score (F := Ideal) p q := by
  funext e
  rw [shapeCast_apply _ Cert.KernelIdeal.Facts₀.shapeCasts_S200000x1_S200000 e (keptAt e)
    (by rw [Shape.rowMajor_val_one, Shape.rowMajor_val_two]; show (e 0).val * 1 + 0 = (e 0).val; omega)]
  rw [extractStridedSlice_apply ![0, 0] _ Cert.KernelIdeal.Facts₀.slices_S212992x1_S200000x1_0_0 (keptAt e) (paddedAt e)
    (fun a => match a with
      | ⟨0, _⟩ => by show (e 0).val = 0 + (e 0).val; omega
      | ⟨1, _⟩ => by show 0 = 0 + 0; rfl)]
  unfold scoreFn Cert.Sage.score
  simp only [Host.reduceAdd, Ideal.hostReduceAdd_def]
  rw [Ideal.hostReduceAdd_single Cert.ReferenceIdeal.Facts₀.reducesTo_S200000x64_S200000_d1 (by decide)]
  show _ = Ideal.ofBits .f32 0x00000000#32 + _
  rw [Ideal.ofBits_zero_f32, zero_add]
  refine Finset.sum_congr rfl fun k _ => ?_
  rw [padded_apply, padded_apply]
  show p (endRow e k) * q (endRow e k) = p _ * q _
  have ek : (Shape.Reduces.lift (by decide : Cert.ReferenceIdeal.S200000x64.Reduces [1] Cert.ReferenceIdeal.S200000) e k) = endRow e k :=
    funext fun a => Fin.ext (by match a with | ⟨0, _⟩ => rfl | ⟨1, _⟩ => rfl)
  rw [ek]

end Cert.Bridge

end
-- ==== Proof.Chain.lean ====
/-
  The contents of the kernel program's buffers at each boundary of its run, as terms of the nine argument arrays.

  Walking @main's segments in order:
    before region 0   the host has sliced the edge list, counted the in-degrees, averaged the features over incoming
                      edges and reshaped the first bias to one row;
    region 0          leaves the hidden features  h = max(layer₁(mean x, x), 0);
    before region 1   the host averages h over incoming edges (same edge slices, same in-degrees) and reshapes the
                      second bias;
    region 1          leaves the output features  z = layer₂(mean h, h);
    before region 2   the host gathers the rows of z at both ends of every labelled edge and pads each with zero rows;
    region 2          leaves the row sums of products;
    the tail          drops the padding rows and flattens.
  Every host stretch is read by walking its operations back from the buffer asked for; every region by the closed form
  of what it leaves; the linear layers and the scores are then the reference's own whole-array operations.
-/
import proofs.«115666_j26577257628190_1_alg».proof.Proof.Regions
import proofs.«115666_j26577257628190_1_alg».proof.Proof.Bridge

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays -/
abbrev aX := m ((c : Thread nD τ).loc main_arg0)
abbrev aEdges := m ((c : Thread nD τ).loc main_arg1)
abbrev aLabels := m ((c : Thread nD τ).loc main_arg2)
abbrev aW1l := m ((c : Thread nD τ).loc main_arg3)
abbrev aW1r := m ((c : Thread nD τ).loc main_arg4)
abbrev aB1 := m ((c : Thread nD τ).loc main_arg5)
abbrev aW2l := m ((c : Thread nD τ).loc main_arg6)
abbrev aW2r := m ((c : Thread nD τ).loc main_arg7)
abbrev aB2 := m ((c : Thread nD τ).loc main_arg8)

/-- The hidden features and the output features, of the argument arrays. -/
abbrev hiddenOf := Cert.Sage.hidden (F := Ideal) (aX m c) (aEdges m c) (aW1l m c) (aW1r m c) (aB1 m c)
abbrev embedOf := Cert.Sage.embed (F := Ideal) (aX m c) (aEdges m c) (aW1l m c) (aW1r m c) (aB1 m c) (aW2l m c) (aW2r m c) (aB2 m c)

/-! ## Entering region 0: the first host stretch, from the launch memory -/

theorem W1_v22 : W1 m ρ c (Proc.devRef .tc main_v22) = Cert.Sage.meanAgg (F := Ideal) (aX m c) (aEdges m c) := by
  show StableHlo.after hostOps0 (W0 m ρ c) (Proc.devRef .tc main_v22) = _
  after_results_simp
  rfl
theorem W1_v1 : W1 m ρ c (Proc.devRef .tc main_v1) = Cert.Sage.edgeRow0 (F := Ideal) (aEdges m c) := by
  show StableHlo.after hostOps0 (W0 m ρ c) (Proc.devRef .tc main_v1) = _
  after_results_simp
  rfl
theorem W1_v3 : W1 m ρ c (Proc.devRef .tc main_v3) = Cert.Sage.edgeRow1 (F := Ideal) (aEdges m c) := by
  show StableHlo.after hostOps0 (W0 m ρ c) (Proc.devRef .tc main_v3) = _
  after_results_simp
  rfl
theorem W1_v10 : W1 m ρ c (Proc.devRef .tc main_v10) = Cert.Sage.degCol (F := Ideal) (aEdges m c) := by
  show StableHlo.after hostOps0 (W0 m ρ c) (Proc.devRef .tc main_v10) = _
  after_results_simp
  rfl
theorem W1_v23 : W1 m ρ c (Proc.devRef .tc main_v23) = shapeCast S1x64 (aB1 m c) shapeCasts_S64_S1x64 := by
  show StableHlo.after hostOps0 (W0 m ρ c) (Proc.devRef .tc main_v23) = _
  after_results_simp
  rfl
theorem W1_arg0 : W1 m ρ c (Proc.devRef .tc main_arg0) = aX m c := by
  show StableHlo.after hostOps0 (W0 m ρ c) (Proc.devRef .tc main_arg0) = _
  after_results_simp
theorem W1_arg2 : W1 m ρ c (Proc.devRef .tc main_arg2) = aLabels m c := by
  show StableHlo.after hostOps0 (W0 m ρ c) (Proc.devRef .tc main_arg2) = _
  after_results_simp
theorem W1_arg3 : W1 m ρ c (Proc.devRef .tc main_arg3) = aW1l m c := by
  show StableHlo.after hostOps0 (W0 m ρ c) (Proc.devRef .tc main_arg3) = _
  after_results_simp
theorem W1_arg4 : W1 m ρ c (Proc.devRef .tc main_arg4) = aW1r m c := by
  show StableHlo.after hostOps0 (W0 m ρ c) (Proc.devRef .tc main_arg4) = _
  after_results_simp
theorem W1_arg6 : W1 m ρ c (Proc.devRef .tc main_arg6) = aW2l m c := by
  show StableHlo.after hostOps0 (W0 m ρ c) (Proc.devRef .tc main_arg6) = _
  after_results_simp
theorem W1_arg7 : W1 m ρ c (Proc.devRef .tc main_arg7) = aW2r m c := by
  show StableHlo.after hostOps0 (W0 m ρ c) (Proc.devRef .tc main_arg7) = _
  after_results_simp
theorem W1_arg8 : W1 m ρ c (Proc.devRef .tc main_arg8) = aB2 m c := by
  show StableHlo.after hostOps0 (W0 m ρ c) (Proc.devRef .tc main_arg8) = _
  after_results_simp

/-! ## Leaving region 0 -/

/-- The hidden features. -/
theorem W2_v24 : W2 m ρ c (Proc.devRef .tc main_v24) = hiddenOf m c := by
  refine (W2_arr m ρ c 5).trans ((final0 (V1 m ρ) c).trans ?_)
  show layer1Fn (W1 m ρ c (Proc.devRef .tc main_v22)) (W1 m ρ c (Proc.devRef .tc main_arg0)) (W1 m ρ c (Proc.devRef .tc main_arg3))
    (W1 m ρ c (Proc.devRef .tc main_arg4)) (W1 m ρ c (Proc.devRef .tc main_v23)) = _
  rw [W1_v22, W1_arg0, W1_arg3, W1_arg4, W1_v23]
  exact Cert.Bridge.layer1_eq _ _ _ _ _

theorem W2_v1 : W2 m ρ c (Proc.devRef .tc main_v1) = Cert.Sage.edgeRow0 (F := Ideal) (aEdges m c) :=
  (W2_of_ne m ρ c main_v1 (by decide)).trans (W1_v1 m ρ c)
theorem W2_v3 : W2 m ρ c (Proc.devRef .tc main_v3) = Cert.Sage.edgeRow1 (F := Ideal) (aEdges m c) :=
  (W2_of_ne m ρ c main_v3 (by decide)).trans (W1_v3 m ρ c)
theorem W2_v10 : W2 m ρ c (Proc.devRef .tc main_v10) = Cert.Sage.degCol (F := Ideal) (aEdges m c) :=
  (W2_of_ne m ρ c main_v10 (by decide)).trans (W1_v10 m ρ c)
theorem W2_arg2 : W2 m ρ c (Proc.devRef .tc main_arg2) = aLabels m c :=
  (W2_of_ne m ρ c main_arg2 (by decide)).trans (W1_arg2 m ρ c)
theorem W2_arg6 : W2 m ρ c (Proc.devRef .tc main_arg6) = aW2l m c :=
  (W2_of_ne m ρ c main_arg6 (by decide)).trans (W1_arg6 m ρ c)
theorem W2_arg7 : W2 m ρ c (Proc.devRef .tc main_arg7) = aW2r m c :=
  (W2_of_ne m ρ c main_arg7 (by decide)).trans (W1_arg7 m ρ c)
theorem W2_arg8 : W2 m ρ c (Proc.devRef .tc main_arg8) = aB2 m c :=
  (W2_of_ne m ρ c main_arg8 (by decide)).trans (W1_arg8 m ρ c)

/-! ## Entering region 1: the second host stretch -/

theorem W3_v36 : W3 m ρ c (Proc.devRef .tc main_v36) = Cert.Sage.meanAgg (F := Ideal) (hiddenOf m c) (aEdges m c) := by
  show StableHlo.after hostOps1 (W2 m ρ c) (Proc.devRef .tc main_v36) = _
  after_results_simp
  rw [W2_v24, W2_v1, W2_v3, W2_v10]
  generalize hiddenOf m c = h
  generalize aEdges m c = ei
  rfl
theorem W3_v24 : W3 m ρ c (Proc.devRef .tc main_v24) = hiddenOf m c := by
  show StableHlo.after hostOps1 (W2 m ρ c) (Proc.devRef .tc main_v24) = _
  after_results_simp
  exact W2_v24 m ρ c
theorem W3_v37 : W3 m ρ c (Proc.devRef .tc main_v37) = shapeCast S1x64 (aB2 m c) shapeCasts_S64_S1x64 := by
  show StableHlo.after hostOps1 (W2 m ρ c) (Proc.devRef .tc main_v37) = _
  after_results_simp
  rw [W2_arg8]
  rfl
theorem W3_arg6 : W3 m ρ c (Proc.devRef .tc main_arg6) = aW2l m c := by
  show StableHlo.after hostOps1 (W2 m ρ c) (Proc.devRef .tc main_arg6) = _
  after_results_simp
  exact W2_arg6 m ρ c
theorem W3_arg7 : W3 m ρ c (Proc.devRef .tc main_arg7) = aW2r m c := by
  show StableHlo.after hostOps1 (W2 m ρ c) (Proc.devRef .tc main_arg7) = _
  after_results_simp
  exact W2_arg7 m ρ c
theorem W3_arg2 : W3 m ρ c (Proc.devRef .tc main_arg2) = aLabels m c := by
  show StableHlo.after hostOps1 (W2 m ρ c) (Proc.devRef .tc main_arg2) = _
  after_results_simp
  exact W2_arg2 m ρ c

/-! ## Leaving region 1 -/

/-- The output features. -/
theorem W4_v38 : W4 m ρ c (Proc.devRef .tc main_v38) = embedOf m c := by
  refine (W4_arr m ρ c 5).trans ((final1 (V3 m ρ) c).trans ?_)
  show layer2Fn (W3 m ρ c (Proc.devRef .tc main_v36)) (W3 m ρ c (Proc.devRef .tc main_v24)) (W3 m ρ c (Proc.devRef .tc main_arg6))
    (W3 m ρ c (Proc.devRef .tc main_arg7)) (W3 m ρ c (Proc.devRef .tc main_v37)) = _
  rw [W3_v36, W3_v24, W3_arg6, W3_arg7, W3_v37]
  exact Cert.Bridge.layer2_eq _ _ _ _ _

theorem W4_arg2 : W4 m ρ c (Proc.devRef .tc main_arg2) = aLabels m c :=
  (W4_of_ne m ρ c main_arg2 (by decide)).trans (W3_arg2 m ρ c)

end Cert.KernelIdeal.Whole

end
-- ==== Proof.Tail.lean ====
/-
  The last stretch of the kernel program: the end rows of every labelled edge gathered from the output features and
  padded with zero rows, the scoring region, and the tail that drops the padding and flattens — read as the network's
  scores of the argument arrays.
-/
import proofs.«115666_j26577257628190_1_alg».proof.Proof.Chain

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Entering region 2: the gathers of the end rows and their padding -/

theorem W8_v57 : W8 m ρ c (Proc.devRef .tc main_v57)
    = pad S212992x64 ![0, 0] ![12992, 0] ![0, 0] (Cert.Sage.endRows (F := Ideal) (embedOf m c) (Cert.Sage.labelRow0 (F := Ideal) (aLabels m c)))
        (sitofp (F := Ideal) .f32 (constantI S_ 32 0#32)) pads_S200000x64_S212992x64_0129920_000 h_S_ := by
  show StableHlo.after hostOps2_3 (StableHlo.after hostOps2_2 (StableHlo.after hostOps2_1 (StableHlo.after hostOps2 (W4 m ρ c)))) (Proc.devRef .tc main_v57) = _
  after_results_simp
  -- the transports along the typed references' (reflexive) type equations are the identity
  show pad S212992x64 ![0, 0] ![12992, 0] ![0, 0]
      (Host.gather gather_S100000x64_S200000x1_S200000x64_1_0_n_n_0_1_164 (W4 m ρ c (Proc.devRef .tc main_v38))
        (broadcastInDim S200000x1 ![0] bcast_S200000_S200000x1_0
          (select
            (cmpi .slt (shapeCast S200000 (extractStridedSlice S1x200000 ![0, 0] (W4 m ρ c (Proc.devRef .tc main_arg2)) slices_S2x200000_S1x200000_0_0) shapeCasts_S1x200000_S200000)
              (broadcastInDim S200000 ![] bcast_S_S200000 (constantI S_ 32 0#32)))
            (addi (shapeCast S200000 (extractStridedSlice S1x200000 ![0, 0] (W4 m ρ c (Proc.devRef .tc main_arg2)) slices_S2x200000_S1x200000_0_0) shapeCasts_S1x200000_S200000)
              (broadcastInDim S200000 ![] bcast_S_S200000 (constantI S_ 32 100000#32)))
            (shapeCast S200000 (extractStridedSlice S1x200000 ![0, 0] (W4 m ρ c (Proc.devRef .tc main_arg2)) slices_S2x200000_S1x200000_0_0) shapeCasts_S1x200000_S200000))))
      (sitofp (F := Ideal) .f32 (constantI S_ 32 0#32)) pads_S200000x64_S212992x64_0129920_000 h_S_ = _
  rw [W4_v38, W4_arg2]
  generalize embedOf m c = z
  generalize aLabels m c = l
  rfl

theorem W8_v58 : W8 m ρ c (Proc.devRef .tc main_v58)
    = pad S212992x64 ![0, 0] ![12992, 0] ![0, 0] (Cert.Sage.endRows (F := Ideal) (embedOf m c) (Cert.Sage.labelRow1 (F := Ideal) (aLabels m c)))
        (sitofp (F := Ideal) .f32 (constantI S_ 32 0#32)) pads_S200000x64_S212992x64_0129920_000 h_S_ := by
  show StableHlo.after hostOps2_3 (StableHlo.after hostOps2_2 (StableHlo.after hostOps2_1 (StableHlo.after hostOps2 (W4 m ρ c)))) (Proc.devRef .tc main_v58) = _
  after_results_simp
  -- the transports along the typed references' (reflexive) type equations are the identity
  show pad S212992x64 ![0, 0] ![12992, 0] ![0, 0]
      (Host.gather gather_S100000x64_S200000x1_S200000x64_1_0_n_n_0_1_164 (W4 m ρ c (Proc.devRef .tc main_v38))
        (broadcastInDim S200000x1 ![0] bcast_S200000_S200000x1_0
          (select
            (cmpi .slt (shapeCast S200000 (extractStridedSlice S1x200000 ![1, 0] (W4 m ρ c (Proc.devRef .tc main_arg2)) slices_S2x200000_S1x200000_1_0) shapeCasts_S1x200000_S200000)
              (broadcastInDim S200000 ![] bcast_S_S200000 (constantI S_ 32 0#32)))
            (addi (shapeCast S200000 (extractStridedSlice S1x200000 ![1, 0] (W4 m ρ c (Proc.devRef .tc main_arg2)) slices_S2x200000_S1x200000_1_0) shapeCasts_S1x200000_S200000)
              (broadcastInDim S200000 ![] bcast_S_S200000 (constantI S_ 32 100000#32)))
            (shapeCast S200000 (extractStridedSlice S1x200000 ![1, 0] (W4 m ρ c (Proc.devRef .tc main_arg2)) slices_S2x200000_S1x200000_1_0) shapeCasts_S1x200000_S200000))))
      (sitofp (F := Ideal) .f32 (constantI S_ 32 0#32)) pads_S200000x64_S212992x64_0129920_000 h_S_ = _
  rw [W4_v38, W4_arg2]
  generalize embedOf m c = z
  generalize aLabels m c = l
  rfl

/-! ## Leaving region 2, and the tail -/

theorem W9_v59 : W9 m ρ c (Proc.devRef .tc main_v59) = scoreFn (W8 m ρ c (Proc.devRef .tc main_v57)) (W8 m ρ c (Proc.devRef .tc main_v58)) :=
  (W9_arr m ρ c 2).trans (final2 (V8 m ρ) c)

/-- THE RESULT of the kernel program is the network of its argument arrays. -/
theorem result_eq : W10 m ρ c (Proc.devRef .tc main_v61)
    = Cert.Sage.out (F := Ideal) (aX m c) (aEdges m c) (aLabels m c) (aW1l m c) (aW1r m c) (aB1 m c) (aW2l m c) (aW2r m c) (aB2 m c) := by
  show StableHlo.after hostOps3 (W9 m ρ c) (Proc.devRef .tc main_v61) = _
  after_results_simp
  rw [W9_v59, W8_v57, W8_v58]
  show _ = Cert.Sage.score (F := Ideal) (Cert.Sage.endRows (F := Ideal) (embedOf m c) (Cert.Sage.labelRow0 (F := Ideal) (aLabels m c)))
    (Cert.Sage.endRows (F := Ideal) (embedOf m c) (Cert.Sage.labelRow1 (F := Ideal) (aLabels m c)))
  generalize Cert.Sage.endRows (F := Ideal) (embedOf m c) (Cert.Sage.labelRow0 (F := Ideal) (aLabels m c)) = p
  generalize Cert.Sage.endRows (F := Ideal) (embedOf m c) (Cert.Sage.labelRow1 (F := Ideal) (aLabels m c)) = q
  exact Cert.Bridge.score_eq p q _ _

end Cert.KernelIdeal.Whole

end
-- ==== Proof.lean ====
/-
  A two-layer mean-aggregating graph network with a dot-product edge scorer, as three pipelined regions among host
  gathers and scatter-adds, against the same network written with whole-array host operations.

  Over the extended reals the two programs compute one function of the nine argument arrays (`Cert.Sage.out`):
  the host stretches of the kernel program are, operation for operation, the reference's own gathers, scatter-adds,
  in-degree clamp and division; each linear-layer region leaves `a · W_l + y · W_r + b` of the arrays it finds (the two
  matrix products as sums over the 64 shared coordinates, the narrowing of the operands to a shorter float format the
  identity on extended reals, the sums added in the reference's order); the scoring region, fed zero-padded rows whose
  padding the tail drops again, leaves each labelled edge's sum of products, the host's sum from zero.  No law of
  arithmetic beyond `0 + s = s` is used, so the precondition is never opened.
  The three frames are the generated ones (the reference's is its generated run with the result dropped); the ideal
  pass rewrote nothing, so `preserves` is trivial.
-/
import proofs.«115666_j26577257628190_1_alg».proof.Defs
import proofs.«115666_j26577257628190_1_alg».proof.Proof.Gen.Kernel
import proofs.«115666_j26577257628190_1_alg».proof.Proof.Gen.Kernel.Frame
import proofs.«115666_j26577257628190_1_alg».proof.Proof.Gen.KernelIdeal
import proofs.«115666_j26577257628190_1_alg».proof.Proof.Gen.KernelIdeal.Frame
import proofs.«115666_j26577257628190_1_alg».proof.Proof.Gen.ReferenceIdeal
import proofs.«115666_j26577257628190_1_alg».proof.Proof.Gen.Pre_finite_inputs
import proofs.«115666_j26577257628190_1_alg».proof.Proof.Gen.ReferenceIdeal.Run
import proofs.«115666_j26577257628190_1_alg».proof.Proof.Gen.ReferenceIdeal.Read
import proofs.«115666_j26577257628190_1_alg».proof.Proof.KernelRun
import proofs.«115666_j26577257628190_1_alg».proof.Proof.RefIs
import proofs.«115666_j26577257628190_1_alg».proof.Proof.Chain
import proofs.«115666_j26577257628190_1_alg».proof.Proof.Tail

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the (agreeing) argument arrays in their result buffer. -/
theorem algebraic : Cert.algebraic_KernelIdeal_ReferenceIdeal := by
  intro m ρ m' ρ' _ hagree
  refine ⟨fun c => Cert.Sage.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.result_eq m ρ c), (h c).2⟩) (Cert.KernelIdeal.Whole.run_named m ρ)
  · refine (θ_run Cert.ReferenceIdeal.defs _ _).mono (fun r h c => ⟨(h c).1.trans ?_, (h c).2⟩)
      (Cert.ReferenceIdeal.Value.run (F := Ideal) m' ρ')
    rw [Cert.Sage.reference_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
